-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16777216 : Shape := ⟨2, ![1, 16777216]⟩
abbrev S_ : Shape := ⟨0, ![]⟩

class Facts : Prop where
  bcast_S_S1x16777216 : S_.BroadcastsInDim S1x16777216 (![] : Fin 0 → Fin S1x16777216.rank)
  reducesTo_S1x16777216_S_d0_1 : S1x16777216.ReducesTo [0, 1] S_
  h_S_ : 0 < S_.numel

variable [Facts]

def fn {F : FTy → Type} [FloatOps F] (main_arg0 : FVec F S1x16777216 .f32) (main_arg1 : FVec F S1x16777216 .f32) (main_arg2 : FVec F S1x16777216 .f32) : IVec S_ 1 :=
  let main_v0 : FVec F S1x16777216 .f32 := Host.absf main_arg0
  let main_cst : FVec F S_ .f32 := constant S_ .f32 0x7F800000#32
  let main_v1 : FVec F S1x16777216 .f32 := broadcastInDim S1x16777216 ![] bcast_S_S1x16777216 main_cst
  let main_v2 : IVec S1x16777216 1 := cmpf .olt main_v0 main_v1
  let main_c : IVec S_ 1 := constantI S_ 1 1#1
  let main_v3 : IVec S_ 1 := (fun x v => Host.reduce IntOp.andi x v reducesTo_S1x16777216_S_d0_1 h_S_) main_v2 main_c
  let main_v4 : FVec F S1x16777216 .f32 := Host.absf main_arg1
  let main_cst_0 : FVec F S_ .f32 := constant S_ .f32 0x7F800000#32
  let main_v5 : FVec F S1x16777216 .f32 := broadcastInDim S1x16777216 ![] bcast_S_S1x16777216 main_cst_0
  let main_v6 : IVec S1x16777216 1 := cmpf .olt main_v4 main_v5
  let main_c_1 : IVec S_ 1 := constantI S_ 1 1#1
  let main_v7 : IVec S_ 1 := (fun x v => Host.reduce IntOp.andi x v reducesTo_S1x16777216_S_d0_1 h_S_) main_v6 main_c_1
  let main_v8 : IVec S_ 1 := andi main_v3 main_v7
  let main_v9 : FVec F S1x16777216 .f32 := Host.absf main_arg2
  let main_cst_2 : FVec F S_ .f32 := constant S_ .f32 0x7F800000#32
  let main_v10 : FVec F S1x16777216 .f32 := broadcastInDim S1x16777216 ![] bcast_S_S1x16777216 main_cst_2
  let main_v11 : IVec S1x16777216 1 := cmpf .olt main_v9 main_v10
  let main_c_3 : IVec S_ 1 := constantI S_ 1 1#1
  let main_v12 : IVec S_ 1 := (fun x v => Host.reduce IntOp.andi x v reducesTo_S1x16777216_S_d0_1 h_S_) main_v11 main_c_3
  let main_v13 : IVec S_ 1 := andi main_v8 main_v12
  main_v13
-- ==== Kernel.lean ====
abbrev S1x16777216 : Shape := ⟨2, ![1, 16777216]⟩
abbrev S1x262144 : Shape := ⟨2, ![1, 262144]⟩

abbrev nBuf : Space → Nat
  | .hbm => 6
  | .vmem => 12
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S1x16777216, .f32⟩
  | .hbm, ⟨4, _⟩ => ⟨S1x16777216, .f32⟩
  | .hbm, ⟨5, _⟩ => ⟨S1x16777216, .f32⟩
  | .local _ .vmem, ⟨0, _⟩ => ⟨S1x262144, .f32⟩
  | .local _ .vmem, ⟨1, _⟩ => ⟨S1x262144, .f32⟩
  | .local _ .vmem, ⟨2, _⟩ => ⟨S1x262144, .f32⟩
  | .local _ .vmem, ⟨3, _⟩ => ⟨S1x262144, .f32⟩
  | .local _ .vmem, ⟨4, _⟩ => ⟨S1x262144, .f32⟩
  | .local _ .vmem, ⟨5, _⟩ => ⟨S1x262144, .f32⟩
  | .local _ .vmem, ⟨6, _⟩ => ⟨S1x262144, .f32⟩
  | .local _ .vmem, ⟨7, _⟩ => ⟨S1x262144, .f32⟩
  | .local _ .vmem, ⟨8, _⟩ => ⟨S1x262144, .f32⟩
  | .local _ .vmem, ⟨9, _⟩ => ⟨S1x262144, .f32⟩
  | .local _ .vmem, ⟨10, _⟩ => ⟨S1x262144, .f32⟩
  | .local _ .vmem, ⟨11, _⟩ => ⟨S1x262144, .f32⟩
  | _, _ => ⟨S1x16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x262144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x262144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x262144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x262144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x262144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x262144_S1x262144_0_0 : ∀ a, (![0, 0] : Fin 2 → Nat) a + S1x262144.size a ≤ S1x262144.size a
  h_S1x262144 : 0 < S1x262144.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x262144.size a ≤ S1x16777216.size a
  hwx0_0 : ∀ i : grid0.Coords, EltTy.bits .f32 = 32 ∨ (Rect.block (s := S1x16777216) S1x262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x262144.size a ≤ S1x16777216.size a
  hwx0_1 : ∀ i : grid0.Coords, EltTy.bits .f32 = 32 ∨ (Rect.block (s := S1x16777216) S1x262144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x262144.size a ≤ S1x16777216.size a
  hwx0_2 : ∀ i : grid0.Coords, EltTy.bits .f32 = 32 ∨ (Rect.block (s := S1x16777216) S1x262144.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x262144.size a ≤ S1x16777216.size a
  hwx0_3 : ∀ i : grid0.Coords, EltTy.bits .f32 = 32 ∨ (Rect.block (s := S1x16777216) S1x262144.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x262144.size a ≤ S1x16777216.size a
  hwx0_4 : ∀ i : grid0.Coords, EltTy.bits .f32 = 32 ∨ (Rect.block (s := S1x16777216) S1x262144.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x262144.size a ≤ S1x16777216.size a
  hwx0_5 : ∀ i : grid0.Coords, EltTy.bits .f32 = 32 ∨ (Rect.block (s := S1x16777216) S1x262144.size (cc0_transform_5 i) (hinb0_5 i)).WholeWords (EltTy.packing .f32)

variable [Facts₀]

abbrev win0_0 : Pipeline.Window sig grid0 :=
  Pipeline.Window.ofSpec (Memref.whole main_arg0) S1x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x262144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x262144.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x262144.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x262144.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x262144.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x16777216 : Shape := ⟨2, ![1, 16777216]⟩
abbrev S_ : Shape := ⟨0, ![]⟩

abbrev nBuf : Space → Nat
  | .hbm => 95
  | .vmem => 0
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S_, .f32⟩
  | .hbm, ⟨4, _⟩ => ⟨S1x16777216, .f32⟩
  | .hbm, ⟨5, _⟩ => ⟨S1x16777216, .i1⟩
  | .hbm, ⟨6, _⟩ => ⟨S1x16777216, .f32⟩
  | .hbm, ⟨7, _⟩ => ⟨S_, .f32⟩
  | .hbm, ⟨8, _⟩ => ⟨S1x16777216, .f32⟩
  | .hbm, ⟨9, _⟩ => ⟨S1x16777216, .f32⟩
  | .hbm, ⟨10, _⟩ => ⟨S1x16777216, .f32⟩
  | .hbm, ⟨11, _⟩ => ⟨S1x16777216, .f32⟩
  | .hbm, ⟨12, _⟩ => ⟨S1x16777216, .f32⟩
  | .hbm, ⟨13, _⟩ => ⟨S_, .f32⟩
  | .hbm, ⟨14, _⟩ => ⟨S1x16777216, .f32⟩
  | .hbm, ⟨15, _⟩ => ⟨S1x16777216, .f32⟩
  | .hbm, ⟨16, _⟩ => ⟨S_, .f32⟩
  | .hbm, ⟨17, _⟩ => ⟨S1x16777216, .f32⟩
  | .hbm, ⟨18, _⟩ => ⟨S1x16777216, .f32⟩
  | .hbm, ⟨19, _⟩ => ⟨S_, .f32⟩
  | .hbm, ⟨20, _⟩ => ⟨S1x16777216, .f32⟩
  | .hbm, ⟨21, _⟩ => ⟨S1x16777216, .f32⟩
  | .hbm, ⟨22, _⟩ => ⟨S1x16777216, .f32⟩
  | .hbm, ⟨23, _⟩ => ⟨S_, .f32⟩
  | .hbm, ⟨24, _⟩ => ⟨S1x16777216, .f32⟩
  | .hbm, ⟨25, _⟩ => ⟨S1x16777216, .i1⟩
  | .hbm, ⟨26, _⟩ => ⟨S1x16777216, .f32⟩
  | .hbm, ⟨27, _⟩ => ⟨S_, .f32⟩
  | .hbm, ⟨28, _⟩ => ⟨S1x16777216, .f32⟩
  | .hbm, ⟨29, _⟩ => ⟨S1x16777216, .f32⟩
  | .hbm, ⟨30, _⟩ => ⟨S1x16777216, .f32⟩
  | .hbm, ⟨31, _⟩ => ⟨S1x16777216, .f32⟩
  | .hbm, ⟨32, _⟩ => ⟨S1x16777216, .f32⟩
  | .hbm, ⟨33, _⟩ => ⟨S_, .f32⟩
  | .hbm, ⟨34, _⟩ => ⟨S1x16777216, .f32⟩
  | .hbm, ⟨35, _⟩ => ⟨S1x16777216, .f32⟩
  | .hbm, ⟨36, _⟩ => ⟨S_, .f32⟩
  | .hbm, ⟨37, _⟩ => ⟨S1x16777216, .f32⟩
  | .hbm, ⟨38, _⟩ => ⟨S1x16777216, .f32⟩
  | .hbm, ⟨39, _⟩ => ⟨S_, .f32⟩
  | .hbm, ⟨40, _⟩ => ⟨S1x16777216, .f32⟩
  | .hbm, ⟨41, _⟩ => ⟨S1x16777216, .f32⟩
  | .hbm, ⟨42, _⟩ => ⟨S1x16777216, .f32⟩
  | .hbm, ⟨43, _⟩ => ⟨S_, .f32⟩
  | .hbm, ⟨44, _⟩ => ⟨S1x16777216, .f32⟩
  | .hbm, ⟨45, _⟩ => ⟨S1x16777216, .i1⟩
  | .hbm, ⟨46, _⟩ => ⟨S1x16777216, .f32⟩
  | .hbm, ⟨47, _⟩ => ⟨S_, .f32⟩
  | .hbm, ⟨48, _⟩ => ⟨S1x16777216, .f32⟩
  | .hbm, ⟨49, _⟩ => ⟨S1x16777216, .f32⟩
  | .hbm, ⟨50, _⟩ => ⟨S1x16777216, .f32⟩
  | .hbm, ⟨51, _⟩ => ⟨S1x16777216, .f32⟩
  | .hbm, ⟨52, _⟩ => ⟨S1x16777216, .f32⟩
  | .hbm, ⟨53, _⟩ => ⟨S_, .f32⟩
  | .hbm, ⟨54, _⟩ => ⟨S1x16777216, .f32⟩
  | .hbm, ⟨55, _⟩ => ⟨S1x16777216, .f32⟩
  | .hbm, ⟨56, _⟩ => ⟨S_, .f32⟩
  | .hbm, ⟨57, _⟩ => ⟨S1x16777216, .f32⟩
  | .hbm, ⟨58, _⟩ => ⟨S1x16777216, .f32⟩
  | .hbm, ⟨59, _⟩ => ⟨S_, .f32⟩
  | .hbm, ⟨60, _⟩ => ⟨S1x16777216, .f32⟩
  | .hbm, ⟨61, _⟩ => ⟨S1x16777216, .f32⟩
  | .hbm, ⟨62, _⟩ => ⟨S1x16777216, .f32⟩
  | .hbm, ⟨63, _⟩ => ⟨S_, .f32⟩
  | .hbm, ⟨64, _⟩ => ⟨S1x16777216, .f32⟩
  | .hbm, ⟨65, _⟩ => ⟨S1x16777216, .i1⟩
  | .hbm, ⟨66, _⟩ => ⟨S_, .f32⟩
  | .hbm, ⟨67, _⟩ => ⟨S1x16777216, .f32⟩
  | .hbm, ⟨68, _⟩ => ⟨S1x16777216, .i1⟩
  | .hbm, ⟨69, _⟩ => ⟨S_, .f32⟩
  | .hbm, ⟨70, _⟩ => ⟨S1x16777216, .f32⟩
  | .hbm, ⟨71, _⟩ => ⟨S1x16777216, .f32⟩
  | .hbm, ⟨72, _⟩ => ⟨S1x16777216, .f32⟩
  | .hbm, ⟨73, _⟩ => ⟨S_, .f32⟩
  | .hbm, ⟨74, _⟩ => ⟨S1x16777216, .f32⟩
  | .hbm, ⟨75, _⟩ => ⟨S1x16777216, .i1⟩
  | .hbm, ⟨76, _⟩ => ⟨S1x16777216, .f32⟩
  | .hbm, ⟨77, _⟩ => ⟨S_, .f32⟩
  | .hbm, ⟨78, _⟩ => ⟨S1x16777216, .f32⟩
  | .hbm, ⟨79, _⟩ => ⟨S1x16777216, .f32⟩
  | .hbm, ⟨80, _⟩ => ⟨S1x16777216, .f32⟩
  | .hbm, ⟨81, _⟩ => ⟨S1x16777216, .f32⟩
  | .hbm, ⟨82, _⟩ => ⟨S1x16777216, .f32⟩
  | .hbm, ⟨83, _⟩ => ⟨S_, .f32⟩
  | .hbm, ⟨84, _⟩ => ⟨S1x16777216, .f32⟩
  | .hbm, ⟨85, _⟩ => ⟨S1x16777216, .f32⟩
  | .hbm, ⟨86, _⟩ => ⟨S_, .f32⟩
  | .hbm, ⟨87, _⟩ => ⟨S1x16777216, .f32⟩
  | .hbm, ⟨88, _⟩ => ⟨S1x16777216, .f32⟩
  | .hbm, ⟨89, _⟩ => ⟨S_, .f32⟩
  | .hbm, ⟨90, _⟩ => ⟨S1x16777216, .f32⟩
  | .hbm, ⟨91, _⟩ => ⟨S1x16777216, .f32⟩
  | .hbm, ⟨92, _⟩ => ⟨S1x16777216, .f32⟩
  | .hbm, ⟨93, _⟩ => ⟨S1x16777216, .f32⟩
  | .hbm, ⟨94, _⟩ => ⟨S1x16777216, .f32⟩
  | _, _ => ⟨S1x16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_cst_16 : Ref sig .tc := ⟨.hbm, 69, rfl⟩
abbrev main_call3_v0 : Ref sig .tc := ⟨.hbm, 70, rfl⟩
abbrev main_v49 : Ref sig .tc := ⟨.hbm, 71, rfl⟩
abbrev main_v50 : Ref sig .tc := ⟨.hbm, 72, rfl⟩
abbrev main_cst_17 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_18 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_19 : Ref sig .tc := ⟨.hbm, 83, rfl⟩
abbrev main_v59 : Ref sig .tc := ⟨.hbm, 84, rfl⟩
abbrev main_v60 : Ref sig .tc := ⟨.hbm, 85, rfl⟩
abbrev main_cst_20 : Ref sig .tc := ⟨.hbm, 86, rfl⟩
abbrev main_v61 : Ref sig .tc := ⟨.hbm, 87, rfl⟩
abbrev main_v62 : Ref sig .tc := ⟨.hbm, 88, rfl⟩
abbrev main_cst_21 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  bcast_S_S1x16777216 : S_.BroadcastsInDim S1x16777216 (![] : Fin 0 → Fin S1x16777216.rank)

variable [Facts₀]

class Facts : Prop extends Facts₀ where

variable [Facts]
-- ==== Proof.LibLogistic.lean ====
/-
  A sigmoid spelt out on the host — negate, exponential, add one, divide into one, both ones the float 1.0 — is the
  logistic function on the extended reals.

  The pattern 0x3F800000 has sign 0, exponent field 127 and fraction field 0, so it denotes
  (2^23 + 0) · 2^(127 − 127 − 23) = 1. The logistic function is by definition the quotient 1 / (1 + e^(−x)) taken
  with the extended reals' division (at −∞ the denominator is +∞ and the value 0; at +∞ the denominator is 1 and the
  value 1), so once both literals read as 1 the spelt expression IS the logistic function, with no case split.
-/
import Idealize.ShloMosaic.PureOps.Ideal
import Idealize.ShloMosaic.PureOps.Ideal.Laws

noncomputable section

namespace Cert.LibLogistic

open Idealize.ShloMosaic

/-- The float pattern of 1.0 denotes the extended real 1: (2^23 + 0) · 2^(127 − 127 − 23). -/
theorem one_f32 : Ideal.ofBits .f32 0x3F800000#32 = 1 := by
  simp [Ideal.ofBits, Ideal.ieee]
  rw [← EReal.coe_mul]
  norm_num

/-- 1 / (1 + e^(−x)), both ones spelt by the pattern of 1.0, is the logistic function of x. -/
theorem sigmoid_spelt (x : EReal) :
    Ideal.div (Ideal.ofBits .f32 0x3F800000#32) (Ideal.ofBits .f32 0x3F800000#32 + Ideal.exp (-x)) = Ideal.logistic x := by
  rw [one_f32]; rfl

end Cert.LibLogistic

end
-- ==== Proof.Activation.lean ====
/-
  The activation SPU and the interval bounds it induces, on the extended reals.

  SPU(v) = v² − ½ where v ≥ 0, and σ(−v) − 1 where v < 0, with σ the logistic function σ(y) = 1 / (1 + e^(−y)).
  For an interval [l, u] the bounds are chosen by where the interval lies:
    l ≥ 0 (SPU is increasing there):  lower = SPU(l),  upper = SPU(u);
    otherwise, u ≤ 0:                 lower = SPU(u),  upper = SPU(SPU(u));
    otherwise (0 strictly inside):    lower = −½,      upper = SPU(u).
  The constants ½, 1 and −½ stay the float words that spell them (0x3F000000, 0x3F800000, 0xBF000000): the same words
  stand on both sides of every equation below, so their values are never needed. Only the zero word is evaluated, once,
  to read the subtraction 0 − v as the negation −v.

  Two spellings of SPU meet here. One applies the logistic function to 0 − v. The other spells the sigmoid out as
  1 / (1 + e^(−(−v))) — negate, negate again inside the sigmoid, exponential, add one, divide into one. Both are SPU on
  every extended real, the infinities included: the logistic function IS that quotient, taken with the extended reals'
  division, so no case split and no finiteness is involved.
-/
import Idealize.ShloMosaic.PureOps.Ideal
import Idealize.ShloMosaic.PureOps.Ideal.Laws
import proofs.«140055_j64321430225053_1_alg».proof.Proof.LibLogistic

noncomputable section

namespace Cert.Activation

open Idealize.ShloMosaic

/-- SPU on the extended reals: v² − ½ where v ≥ 0, σ(−v) − 1 elsewhere. -/
def spu (v : EReal) : EReal :=
  Scalar.select (Ideal.cmp .oge v (Ideal.ofBits .f32 0x00000000#32))
    (v * v - Ideal.ofBits .f32 0x3F000000#32)
    (Ideal.logistic (-v) - Ideal.ofBits .f32 0x3F800000#32)

/-- The lower bound of SPU over [l, u]: SPU(l) when l ≥ 0, else SPU(u) when u ≤ 0, else −½. -/
def lower (l u : EReal) : EReal :=
  Scalar.select (Ideal.cmp .oge l (Ideal.ofBits .f32 0x00000000#32)) (spu l)
    (Scalar.select (Ideal.cmp .ole u (Ideal.ofBits .f32 0x00000000#32)) (spu u) (Ideal.ofBits .f32 0xBF000000#32))

/-- The upper bound of SPU over [l, u]: SPU(u) when l ≥ 0, else SPU(SPU(u)) when u ≤ 0, else SPU(u). -/
def upper (l u : EReal) : EReal :=
  Scalar.select (Ideal.cmp .oge l (Ideal.ofBits .f32 0x00000000#32)) (spu u)
    (Scalar.select (Ideal.cmp .ole u (Ideal.ofBits .f32 0x00000000#32)) (spu (spu u)) (spu u))

/-- SPU with the logistic function applied to the subtraction 0 − v. -/
def spuOfSub (v : EReal) : EReal :=
  Scalar.select (Ideal.cmp .oge v (Ideal.ofBits .f32 0x00000000#32))
    (v * v - Ideal.ofBits .f32 0x3F000000#32)
    (Ideal.logistic (Ideal.ofBits .f32 0x00000000#32 - v) - Ideal.ofBits .f32 0x3F800000#32)

/-- SPU with the sigmoid spelt out: 1 / (1 + e^(−(−v))), both ones the float 1.0. -/
def spuSpelt (v : EReal) : EReal :=
  Scalar.select (Ideal.cmp .oge v (Ideal.ofBits .f32 0x00000000#32))
    (v * v - Ideal.ofBits .f32 0x3F000000#32)
    (Ideal.div (Ideal.ofBits .f32 0x3F800000#32) (Ideal.ofBits .f32 0x3F800000#32 + Ideal.exp (-(-v)))
      - Ideal.ofBits .f32 0x3F800000#32)

/-- The zero word is 0, and 0 − v = −v on every extended real. -/
theorem zero_word_sub (v : EReal) : Ideal.ofBits .f32 0x00000000#32 - v = -v := by
  rw [Ideal.ofBits_zero_f32, zero_sub]

theorem spuOfSub_eq : spuOfSub = spu := by
  funext v
  unfold spuOfSub spu
  rw [zero_word_sub]

theorem spuSpelt_eq : spuSpelt = spu := by
  funext v
  unfold spuSpelt spu
  rw [Cert.LibLogistic.sigmoid_spelt (-v)]

/-! ## The three results, array by array

Each result array is one of the functions above applied index by index. Stated over an arbitrary index type, so that the same
function describes a whole array and any block of it. -/

/-- SPU of every entry. -/
def imageOf {ι : Type} (x : ι → EReal) : ι → EReal := fun i => spu (x i)

/-- The lower bounds, entry by entry. -/
def lowerOf {ι : Type} (l u : ι → EReal) : ι → EReal := fun i => lower (l i) (u i)

/-- The upper bounds, entry by entry. -/
def upperOf {ι : Type} (l u : ι → EReal) : ι → EReal := fun i => upper (l i) (u i)

end Cert.Activation

end
-- ==== Proof.KernelPoint.lean ====
/-
  The idealized kernel's three stored values, read at one index of a block.

  The body loads one block of each argument — x, l, u, each of 262144 entries — and stores three blocks. Every operation
  between the loads and the stores acts entry by entry, so entry j of each stored block depends only on entry j of the
  loaded blocks:
    first store:   SPU(x j);
    second store:  the lower bound of SPU over [l j, u j];
    third store:   the upper bound of SPU over [l j, u j].
  The body spells SPU with the logistic function applied to 0 − v; Activation.lean shows that spelling is SPU.
-/
import Idealize.ShloMosaic.Lib.ValueIdx
import proofs.«140055_j64321430225053_1_alg».proof.Proof.Gen.KernelIdeal.Skeleton
import proofs.«140055_j64321430225053_1_alg».proof.Proof.Activation

noncomputable section

namespace Cert.KernelIdeal.Point

open Cert.KernelIdeal Cert.KernelIdeal.Gen Idealize.ShloMosaic Cert.Activation

/-- Entry j of the first stored block is SPU of entry j of the x block. -/
theorem image_at (x : Vec Ideal S1x262144 .f32) (j : S1x262144.Idx) :
    k0_pay4 (F := Ideal) x j = spu (x j) := by
  show spuOfSub (x j) = _
  rw [spuOfSub_eq]

/-- Entry j of the second stored block is the lower bound over [l j, u j]. -/
theorem lower_at (l u : Vec Ideal S1x262144 .f32) (j : S1x262144.Idx) :
    k0_pay2 (F := Ideal) u (k0_pay5 l) (k0_pay6 u) (k0_pay7 l) k0_pay8 j = lower (l j) (u j) := by
  show Scalar.select (Ideal.cmp .oge (l j) (Ideal.ofBits .f32 0x00000000#32)) (spuOfSub (l j))
      (Scalar.select (Ideal.cmp .ole (u j) (Ideal.ofBits .f32 0x00000000#32)) (spuOfSub (u j))
        (Ideal.ofBits .f32 0xBF000000#32)) = _
  rw [spuOfSub_eq]
  rfl

/-- Entry j of the third stored block is the upper bound over [l j, u j]; where u j ≤ 0 it applies SPU twice. -/
theorem upper_at (l u : Vec Ideal S1x262144 .f32) (j : S1x262144.Idx) :
    k0_pay3 (F := Ideal) u (k0_pay6 u) (k0_pay7 l) k0_pay8 j = upper (l j) (u j) := by
  show Scalar.select (Ideal.cmp .oge (l j) (Ideal.ofBits .f32 0x00000000#32)) (spuOfSub (u j))
      (Scalar.select (Ideal.cmp .ole (u j) (Ideal.ofBits .f32 0x00000000#32)) (spuOfSub (spuOfSub (u j)))
        (spuOfSub (u j))) = _
  rw [spuOfSub_eq]
  rfl

end Cert.KernelIdeal.Point

end
-- ==== Proof.KernelArrays.lean ====
/-
  From blocks to arrays: what the idealized kernel leaves in its three result arrays.

  Each array of 16777216 entries is cut into 64 blocks of 262144 consecutive entries; grid point t handles block t of every
  array, the three arguments and the three results alike (all six index maps send t to block (0, t)). At point t the body
  reads block t of x, l and u and writes block t of each result, entry by entry (KernelPoint.lean). So block t of each
  written result is block t of ONE function of the whole argument arrays — SPU of every entry, the lower bounds, the upper
  bounds — and since the 64 blocks tile the array (entry q of the single row lies in block q / 262144), each result array ends
  holding that function everywhere.
-/
import Idealize.ShloMosaic.Lib.Pipeline.Value
import proofs.«140055_j64321430225053_1_alg».proof.Proof.Gen.KernelIdeal.Value
import proofs.«140055_j64321430225053_1_alg».proof.Proof.KernelPoint

noncomputable section

namespace Cert.KernelIdeal.Arrays

open Cert.KernelIdeal Cert.KernelIdeal.Gen Idealize.ShloMosaic Idealize.ShloMosaic.TcCoe Idealize.SL.Sem Cert.Activation
open Idealize.ShloMosaic.Pipeline (Dat)

variable (m : (ℓ : Loc nD τ sig) → Buf (Elt Ideal) ℓ) (ρ : Dev nD → PrngReg)

/-- The offset of the body's one rectangle is zero on both axes. -/
theorem zero_offset : (![0, 0] : Fin 2 → Nat) = fun _ => 0 := funext fun a => by fin_cases a <;> rfl

/-- The six index maps, decided over the 64 grid points: every window's block at point t is block (0, t). -/
theorem block_index : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val) :=
  (by decide +kernel : ∀ t : Fin grid0.N, _)

/-! ## An argument's block sits where the result's block sits

A block's coordinate in the array is always index × size + the coordinate inside the block; the indices agree, so entry j of
an argument's block at point t is the argument's entry at the very position where entry j of the result's block lands. -/

/-- Entry j of x's block and entry j of the first result's block are one array position. -/
theorem x_with_image (t : Fin cfg0.N) (j : S1x262144.Idx) :
    ((cfg0.win 0).blk t).view.emb j = ((cfg0.win 3).blk t).view.emb j := by
  obtain ⟨⟨a0, b0⟩, ⟨a1, b1⟩, ⟨a2, b2⟩, ⟨a3, b3⟩, ⟨a4, b4⟩, ⟨a5, b5⟩⟩ := block_index t
  funext a; apply Fin.ext
  match a with
  | ⟨0, _⟩ => show win0_0.index t (0 : Fin 2) * 1 + 1 * (j 0).val = win0_3.index t (0 : Fin 2) * 1 + 1 * (j 0).val; omega
  | ⟨1, _⟩ => show win0_0.index t (1 : Fin 2) * 262144 + 1 * (j 1).val = win0_3.index t (1 : Fin 2) * 262144 + 1 * (j 1).val; omega

/-- Entry j of l's block and entry j of the second result's block are one array position. -/
theorem l_with_lower (t : Fin cfg0.N) (j : S1x262144.Idx) :
    ((cfg0.win 1).blk t).view.emb j = ((cfg0.win 4).blk t).view.emb j := by
  obtain ⟨⟨a0, b0⟩, ⟨a1, b1⟩, ⟨a2, b2⟩, ⟨a3, b3⟩, ⟨a4, b4⟩, ⟨a5, b5⟩⟩ := block_index t
  funext a; apply Fin.ext
  match a with
  | ⟨0, _⟩ => show win0_1.index t (0 : Fin 2) * 1 + 1 * (j 0).val = win0_4.index t (0 : Fin 2) * 1 + 1 * (j 0).val; omega
  | ⟨1, _⟩ => show win0_1.index t (1 : Fin 2) * 262144 + 1 * (j 1).val = win0_4.index t (1 : Fin 2) * 262144 + 1 * (j 1).val; omega

/-- Entry j of u's block and entry j of the second result's block are one array position. -/
theorem u_with_lower (t : Fin cfg0.N) (j : S1x262144.Idx) :
    ((cfg0.win 2).blk t).view.emb j = ((cfg0.win 4).blk t).view.emb j := by
  obtain ⟨⟨a0, b0⟩, ⟨a1, b1⟩, ⟨a2, b2⟩, ⟨a3, b3⟩, ⟨a4, b4⟩, ⟨a5, b5⟩⟩ := block_index t
  funext a; apply Fin.ext
  match a with
  | ⟨0, _⟩ => show win0_2.index t (0 : Fin 2) * 1 + 1 * (j 0).val = win0_4.index t (0 : Fin 2) * 1 + 1 * (j 0).val; omega
  | ⟨1, _⟩ => show win0_2.index t (1 : Fin 2) * 262144 + 1 * (j 1).val = win0_4.index t (1 : Fin 2) * 262144 + 1 * (j 1).val; omega

/-- Entry j of l's block and entry j of the third result's block are one array position. -/
theorem l_with_upper (t : Fin cfg0.N) (j : S1x262144.Idx) :
    ((cfg0.win 1).blk t).view.emb j = ((cfg0.win 5).blk t).view.emb j := by
  obtain ⟨⟨a0, b0⟩, ⟨a1, b1⟩, ⟨a2, b2⟩, ⟨a3, b3⟩, ⟨a4, b4⟩, ⟨a5, b5⟩⟩ := block_index t
  funext a; apply Fin.ext
  match a with
  | ⟨0, _⟩ => show win0_1.index t (0 : Fin 2) * 1 + 1 * (j 0).val = win0_5.index t (0 : Fin 2) * 1 + 1 * (j 0).val; omega
  | ⟨1, _⟩ => show win0_1.index t (1 : Fin 2) * 262144 + 1 * (j 1).val = win0_5.index t (1 : Fin 2) * 262144 + 1 * (j 1).val; omega

/-- Entry j of u's block and entry j of the third result's block are one array position. -/
theorem u_with_upper (t : Fin cfg0.N) (j : S1x262144.Idx) :
    ((cfg0.win 2).blk t).view.emb j = ((cfg0.win 5).blk t).view.emb j := by
  obtain ⟨⟨a0, b0⟩, ⟨a1, b1⟩, ⟨a2, b2⟩, ⟨a3, b3⟩, ⟨a4, b4⟩, ⟨a5, b5⟩⟩ := block_index t
  funext a; apply Fin.ext
  match a with
  | ⟨0, _⟩ => show win0_2.index t (0 : Fin 2) * 1 + 1 * (j 0).val = win0_5.index t (0 : Fin 2) * 1 + 1 * (j 0).val; omega
  | ⟨1, _⟩ => show win0_2.index t (1 : Fin 2) * 262144 + 1 * (j 1).val = win0_5.index t (1 : Fin 2) * 262144 + 1 * (j 1).val; omega

/-! ## What point t writes back is block t of one whole-array function -/

/-- Point t writes back, to the first result, block t of SPU of every entry of x. -/
theorem image_block (c : Dev nD) (t : Fin cfg0.N) :
    (dats m 0 c).flushed 3 t = ((cfg0.win 3).blk t).view.read (Elt Ideal) (imageOf (V m c main_arg0)) := by
  rw [Value.flushed3]
  unfold out0_3
  rw [View.canon_unit_zero zero_offset]
  simp only [View.ld_unit_zero (S := S1x262144) zero_offset]
  funext j
  refine (Point.image_at (iblk m c 0 t) j).trans ?_
  show spu (V m c main_arg0 (((cfg0.win 0).blk t).view.emb j)) = spu (V m c main_arg0 (((cfg0.win 3).blk t).view.emb j))
  rw [x_with_image t j]

/-- Point t writes back, to the second result, block t of the lower bounds over [l, u]. -/
theorem lower_block (c : Dev nD) (t : Fin cfg0.N) :
    (dats m 0 c).flushed 4 t = ((cfg0.win 4).blk t).view.read (Elt Ideal) (lowerOf (V m c main_arg1) (V m c main_arg2)) := by
  rw [Value.flushed4]
  unfold out0_4
  rw [View.canon_unit_zero zero_offset]
  simp only [View.ld_unit_zero (S := S1x262144) zero_offset]
  funext j
  refine (Point.lower_at (iblk m c 1 t) (iblk m c 2 t) j).trans ?_
  show lower (V m c main_arg1 (((cfg0.win 1).blk t).view.emb j)) (V m c main_arg2 (((cfg0.win 2).blk t).view.emb j))
    = lower (V m c main_arg1 (((cfg0.win 4).blk t).view.emb j)) (V m c main_arg2 (((cfg0.win 4).blk t).view.emb j))
  rw [l_with_lower t j, u_with_lower t j]

/-- Point t writes back, to the third result, block t of the upper bounds over [l, u]. -/
theorem upper_block (c : Dev nD) (t : Fin cfg0.N) :
    (dats m 0 c).flushed 5 t = ((cfg0.win 5).blk t).view.read (Elt Ideal) (upperOf (V m c main_arg1) (V m c main_arg2)) := by
  rw [Value.flushed5]
  unfold out0_5
  rw [View.canon_unit_zero zero_offset]
  simp only [View.ld_unit_zero (S := S1x262144) zero_offset]
  funext j
  refine (Point.upper_at (iblk m c 1 t) (iblk m c 2 t) j).trans ?_
  show upper (V m c main_arg1 (((cfg0.win 1).blk t).view.emb j)) (V m c main_arg2 (((cfg0.win 2).blk t).view.emb j))
    = upper (V m c main_arg1 (((cfg0.win 5).blk t).view.emb j)) (V m c main_arg2 (((cfg0.win 5).blk t).view.emb j))
  rw [l_with_upper t j, u_with_upper t j]

/-! ## The blocks tile each result array -/

/-- An index of the array lies in point t's block of output window 3 iff each coordinate lies in the block's range. -/
theorem mem_block3 (t : Fin cfg0.N) (i : S1x16777216.Idx) :
    i ∈ ((cfg0.win 3).blk t).view.set ↔ ∀ a : Fin 2, win0_3.index t a * S1x262144.size a ≤ (i a).val ∧ (i a).val < win0_3.index t a * S1x262144.size a + S1x262144.size a := by
  show i ∈ ((View.whole main_v0_0).slice (win0_3.rect t)).set ↔ _
  rw [View.set_slice_whole, Rect.mem_set_unit]
  exact Iff.rfl

/-- Every index of the array is in some point's block: column q is in the block of point q / 262144. -/
theorem cover3 (i : S1x16777216.Idx) :
    ∃ t : Fin cfg0.N, (cfg0.win 3).flush t = true ∧ i ∈ ((cfg0.win 3).blk t).view.set := by
  have hi0 : (i 0).val < 1 := (i 0).isLt
  have hi1 : (i 1).val < 16777216 := (i 1).isLt
  have hN : cfg0.N = 64 := N_0
  have hq : (i 1).val / 262144 < cfg0.N := by rw [hN]; omega
  obtain ⟨-, -, -, ⟨a3, b3⟩, ⟨a4, b4⟩, ⟨a5, b5⟩⟩ := block_index ⟨(i 1).val / 262144, hq⟩
  have b3' : win0_3.index ⟨(i 1).val / 262144, hq⟩ (1 : Fin 2) = (i 1).val / 262144 := b3
  have b4' : win0_4.index ⟨(i 1).val / 262144, hq⟩ (1 : Fin 2) = (i 1).val / 262144 := b4
  have b5' : win0_5.index ⟨(i 1).val / 262144, hq⟩ (1 : Fin 2) = (i 1).val / 262144 := b5
  refine ⟨⟨(i 1).val / 262144, hq⟩, flush0_3 _, ?_⟩
  rw [mem_block3]
  intro a
  match a with
  | ⟨0, _⟩ => show win0_3.index ⟨(i 1).val / 262144, hq⟩ (0 : Fin 2) * 1 ≤ (i 0).val ∧ (i 0).val < win0_3.index ⟨(i 1).val / 262144, hq⟩ (0 : Fin 2) * 1 + 1; omega
  | ⟨1, _⟩ => show win0_3.index ⟨(i 1).val / 262144, hq⟩ (1 : Fin 2) * 262144 ≤ (i 1).val ∧ (i 1).val < win0_3.index ⟨(i 1).val / 262144, hq⟩ (1 : Fin 2) * 262144 + 262144; omega

/-- An index of the array lies in point t's block of output window 4 iff each coordinate lies in the block's range. -/
theorem mem_block4 (t : Fin cfg0.N) (i : S1x16777216.Idx) :
    i ∈ ((cfg0.win 4).blk t).view.set ↔ ∀ a : Fin 2, win0_4.index t a * S1x262144.size a ≤ (i a).val ∧ (i a).val < win0_4.index t a * S1x262144.size a + S1x262144.size a := by
  show i ∈ ((View.whole main_v0_1).slice (win0_4.rect t)).set ↔ _
  rw [View.set_slice_whole, Rect.mem_set_unit]
  exact Iff.rfl

/-- Every index of the array is in some point's block: column q is in the block of point q / 262144. -/
theorem cover4 (i : S1x16777216.Idx) :
    ∃ t : Fin cfg0.N, (cfg0.win 4).flush t = true ∧ i ∈ ((cfg0.win 4).blk t).view.set := by
  have hi0 : (i 0).val < 1 := (i 0).isLt
  have hi1 : (i 1).val < 16777216 := (i 1).isLt
  have hN : cfg0.N = 64 := N_0
  have hq : (i 1).val / 262144 < cfg0.N := by rw [hN]; omega
  obtain ⟨-, -, -, ⟨a3, b3⟩, ⟨a4, b4⟩, ⟨a5, b5⟩⟩ := block_index ⟨(i 1).val / 262144, hq⟩
  have b3' : win0_3.index ⟨(i 1).val / 262144, hq⟩ (1 : Fin 2) = (i 1).val / 262144 := b3
  have b4' : win0_4.index ⟨(i 1).val / 262144, hq⟩ (1 : Fin 2) = (i 1).val / 262144 := b4
  have b5' : win0_5.index ⟨(i 1).val / 262144, hq⟩ (1 : Fin 2) = (i 1).val / 262144 := b5
  refine ⟨⟨(i 1).val / 262144, hq⟩, flush0_4 _, ?_⟩
  rw [mem_block4]
  intro a
  match a with
  | ⟨0, _⟩ => show win0_4.index ⟨(i 1).val / 262144, hq⟩ (0 : Fin 2) * 1 ≤ (i 0).val ∧ (i 0).val < win0_4.index ⟨(i 1).val / 262144, hq⟩ (0 : Fin 2) * 1 + 1; omega
  | ⟨1, _⟩ => show win0_4.index ⟨(i 1).val / 262144, hq⟩ (1 : Fin 2) * 262144 ≤ (i 1).val ∧ (i 1).val < win0_4.index ⟨(i 1).val / 262144, hq⟩ (1 : Fin 2) * 262144 + 262144; omega

/-- An index of the array lies in point t's block of output window 5 iff each coordinate lies in the block's range. -/
theorem mem_block5 (t : Fin cfg0.N) (i : S1x16777216.Idx) :
    i ∈ ((cfg0.win 5).blk t).view.set ↔ ∀ a : Fin 2, win0_5.index t a * S1x262144.size a ≤ (i a).val ∧ (i a).val < win0_5.index t a * S1x262144.size a + S1x262144.size a := by
  show i ∈ ((View.whole main_v0_2).slice (win0_5.rect t)).set ↔ _
  rw [View.set_slice_whole, Rect.mem_set_unit]
  exact Iff.rfl

/-- Every index of the array is in some point's block: column q is in the block of point q / 262144. -/
theorem cover5 (i : S1x16777216.Idx) :
    ∃ t : Fin cfg0.N, (cfg0.win 5).flush t = true ∧ i ∈ ((cfg0.win 5).blk t).view.set := by
  have hi0 : (i 0).val < 1 := (i 0).isLt
  have hi1 : (i 1).val < 16777216 := (i 1).isLt
  have hN : cfg0.N = 64 := N_0
  have hq : (i 1).val / 262144 < cfg0.N := by rw [hN]; omega
  obtain ⟨-, -, -, ⟨a3, b3⟩, ⟨a4, b4⟩, ⟨a5, b5⟩⟩ := block_index ⟨(i 1).val / 262144, hq⟩
  have b3' : win0_3.index ⟨(i 1).val / 262144, hq⟩ (1 : Fin 2) = (i 1).val / 262144 := b3
  have b4' : win0_4.index ⟨(i 1).val / 262144, hq⟩ (1 : Fin 2) = (i 1).val / 262144 := b4
  have b5' : win0_5.index ⟨(i 1).val / 262144, hq⟩ (1 : Fin 2) = (i 1).val / 262144 := b5
  refine ⟨⟨(i 1).val / 262144, hq⟩, flush0_5 _, ?_⟩
  rw [mem_block5]
  intro a
  match a with
  | ⟨0, _⟩ => show win0_5.index ⟨(i 1).val / 262144, hq⟩ (0 : Fin 2) * 1 ≤ (i 0).val ∧ (i 0).val < win0_5.index ⟨(i 1).val / 262144, hq⟩ (0 : Fin 2) * 1 + 1; omega
  | ⟨1, _⟩ => show win0_5.index ⟨(i 1).val / 262144, hq⟩ (1 : Fin 2) * 262144 ≤ (i 1).val ∧ (i 1).val < win0_5.index ⟨(i 1).val / 262144, hq⟩ (1 : Fin 2) * 262144 + 262144; omega

/-! ## The result arrays after the run -/

/-- The first result array ends holding SPU of every entry of x. -/
theorem image_final (c : Dev nD) :
    (dats m 0 c).arrAt 3 cfg0.N = imageOf (m ((c : Thread nD τ).loc main_arg0)) :=
  (dats m 0 c).arrAt_eq_of_cover 3 (imageOf (V m c main_arg0)) (fun t _ => image_block m c t) cover3

/-- The second result array ends holding the lower bounds over [l, u]. -/
theorem lower_final (c : Dev nD) :
    (dats m 0 c).arrAt 4 cfg0.N = lowerOf (m ((c : Thread nD τ).loc main_arg1)) (m ((c : Thread nD τ).loc main_arg2)) :=
  (dats m 0 c).arrAt_eq_of_cover 4 (lowerOf (V m c main_arg1) (V m c main_arg2)) (fun t _ => lower_block m c t) cover4

/-- The third result array ends holding the upper bounds over [l, u]. -/
theorem upper_final (c : Dev nD) :
    (dats m 0 c).arrAt 5 cfg0.N = upperOf (m ((c : Thread nD τ).loc main_arg1)) (m ((c : Thread nD τ).loc main_arg2)) :=
  (dats m 0 c).arrAt_eq_of_cover 5 (upperOf (V m c main_arg1) (V m c main_arg2)) (fun t _ => upper_block m c t) cover5

/-- Every weakly fair execution of the idealized kernel terminates with the three result arrays at SPU of x, the lower
    bounds and the upper bounds over [l, u], and the arguments unchanged. -/
theorem run : θ_run defs (onTc (τ := τ) (main (F := Ideal))) ⟨m, fun _ => 0, ρ⟩ fun r => ∀ c : Dev nD,
      r.2.mem ((c : Thread nD τ).loc main_v0_0) = imageOf (m ((c : Thread nD τ).loc main_arg0))
      ∧ r.2.mem ((c : Thread nD τ).loc main_v0_1) = lowerOf (m ((c : Thread nD τ).loc main_arg1)) (m ((c : Thread nD τ).loc main_arg2))
      ∧ r.2.mem ((c : Thread nD τ).loc main_v0_2) = upperOf (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (image_final m c),
      (h c).2.1.trans (lower_final m c),
      (h c).2.2.1.trans (upper_final m c),
      (h c).2.2.2⟩)
    (Value.run_blocks m ρ)

end Cert.KernelIdeal.Arrays

end
-- ==== Proof.ReferenceArrays.lean ====
/-
  The idealized reference's three results as whole-array functions of its arguments.

  The reference is a chain of array operations, every one of them entry by entry: comparisons against a broadcast zero,
  products, differences with broadcast constants, selections, and the sigmoid spelt out — negate, negate again,
  exponential, add one, divide into one. So entry i of each result depends only on entry i of the arguments:
    first result:   SPU(x i), the sigmoid spelt out;
    second result:  the lower bound of SPU over [l i, u i];
    third result:   the upper bound of SPU over [l i, u i] — the stage that applies SPU a second time takes the
                    first application's result array as its operand, so at i it is SPU(SPU(u i)).
  Activation.lean shows the spelt-out sigmoid is the logistic function, so these are the functions of Activation.lean.
-/
import proofs.«140055_j64321430225053_1_alg».proof.Proof.Gen.ReferenceIdeal.Read
import proofs.«140055_j64321430225053_1_alg».proof.Proof.Activation

noncomputable section

namespace Cert.ReferenceIdeal.Arrays

open Cert.ReferenceIdeal Cert.ReferenceIdeal.Read Idealize.ShloMosaic Cert.Activation

/-- Entry i of the first result is SPU(x i). -/
theorem image_at (x : FVec Ideal S1x16777216 .f32) (i : S1x16777216.Idx) :
    val_main_v14 (F := Ideal) x i = spu (x i) := by
  show spuSpelt (x i) = _
  rw [spuSpelt_eq]

/-- Entry i of the second result is the lower bound over [l i, u i]. -/
theorem lower_at (l u : FVec Ideal S1x16777216 .f32) (i : S1x16777216.Idx) :
    val_main_v50 (F := Ideal) l u i = lower (l i) (u i) := by
  show Scalar.select (Ideal.cmp .oge (l i) (Ideal.ofBits .f32 0x00000000#32)) (spuSpelt (l i))
      (Scalar.select (Ideal.cmp .ole (u i) (Ideal.ofBits .f32 0x00000000#32)) (spuSpelt (u i))
        (Ideal.ofBits .f32 0xBF000000#32)) = _
  rw [spuSpelt_eq]
  rfl

/-- Entry i of the third result is the upper bound over [l i, u i]. -/
theorem upper_at (l u : FVec Ideal S1x16777216 .f32) (i : S1x16777216.Idx) :
    val_main_v67 (F := Ideal) l u i = upper (l i) (u i) := by
  show Scalar.select (Ideal.cmp .oge (l i) (Ideal.ofBits .f32 0x00000000#32)) (spuSpelt (u i))
      (Scalar.select (Ideal.cmp .ole (u i) (Ideal.ofBits .f32 0x00000000#32)) (spuSpelt (spuSpelt (u i)))
        (spuSpelt (u i))) = _
  rw [spuSpelt_eq]
  rfl

/-- The first result is SPU of every entry of x. -/
theorem image_eq (x : FVec Ideal S1x16777216 .f32) : val_main_v14 (F := Ideal) x = imageOf x :=
  funext (image_at x)

/-- The second result is the lower bounds, entry by entry. -/
theorem lower_eq (l u : FVec Ideal S1x16777216 .f32) : val_main_v50 (F := Ideal) l u = lowerOf l u :=
  funext (lower_at l u)

/-- The third result is the upper bounds, entry by entry. -/
theorem upper_eq (l u : FVec Ideal S1x16777216 .f32) : val_main_v67 (F := Ideal) l u = upperOf l u :=
  funext (upper_at l u)

end Cert.ReferenceIdeal.Arrays

end
-- ==== Proof.lean ====
/-
  The idealized kernel and the idealized reference compute the same three arrays.

  Both programs take x, l and u, each one row of 16777216 reals, and return SPU(x) and the lower and upper bounds of SPU over
  the intervals [l, u], entry by entry, where SPU(v) = v² − ½ for v ≥ 0 and σ(−v) − 1 for v < 0 (Activation.lean).
  The kernel works through the row in 64 blocks of 262144 entries and applies the logistic function to 0 − v; the reference
  works on whole arrays and spells the sigmoid out as 1 / (1 + e^(−(−v))). On the extended reals the logistic function is that
  quotient by definition and 0 − v is −v, so entry by entry the two programs evaluate one function (KernelPoint.lean for
  the kernel's blocks, ReferenceArrays.lean for the reference's stages), and since the blocks tile the row the kernel's
  result arrays are that function of the whole arguments (KernelArrays.lean). No step uses that the inputs are finite.

  The kernel as printed is read at the extended reals without any rewrite, so there is nothing to preserve; the three frame
  claims are the generated frames, the reference's being its generated run with the results dropped.
-/
import proofs.«140055_j64321430225053_1_alg».proof.Defs
import proofs.«140055_j64321430225053_1_alg».proof.Proof.Gen.Kernel
import proofs.«140055_j64321430225053_1_alg».proof.Proof.Gen.Kernel.Frame
import proofs.«140055_j64321430225053_1_alg».proof.Proof.Gen.KernelIdeal
import proofs.«140055_j64321430225053_1_alg».proof.Proof.Gen.KernelIdeal.Frame
import proofs.«140055_j64321430225053_1_alg».proof.Proof.Gen.KernelIdeal.Value
import proofs.«140055_j64321430225053_1_alg».proof.Proof.Gen.ReferenceIdeal
import proofs.«140055_j64321430225053_1_alg».proof.Proof.Gen.ReferenceIdeal.Run
import proofs.«140055_j64321430225053_1_alg».proof.Proof.Gen.ReferenceIdeal.Read
import proofs.«140055_j64321430225053_1_alg».proof.Proof.Gen.Pre_finite_inputs
import proofs.«140055_j64321430225053_1_alg».proof.Proof.KernelArrays
import proofs.«140055_j64321430225053_1_alg».proof.Proof.ReferenceArrays
import Idealize.ShloMosaic.Adequacy
import Idealize.ShloMosaic.Init

noncomputable section

namespace Cert.Proof

open Idealize.ShloMosaic Idealize.ShloMosaic.TcCoe Idealize.SL.Sem Cert.Activation

/-- The kernel as printed runs to the end without a fault and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with what it says about the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- From memories that agree on x, l and u, both programs end with SPU(x), the lower bounds and the upper bounds over [l, u]
    in their three result arrays: the kernel by its blocks, the reference stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => imageOf (m ((c.tc : Thread Cert.KernelIdeal.nD Cert.KernelIdeal.τ).loc Cert.KernelIdeal.main_arg0)),
    fun c => lowerOf (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => upperOf (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Arrays.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v14_eq, Cert.ReferenceIdeal.Arrays.image_eq, (hagree c).1]
  · rw [(h c).2.1, Cert.ReferenceIdeal.Read.val_main_v50_eq, Cert.ReferenceIdeal.Arrays.lower_eq, (hagree c).2.1, (hagree c).2.2]
  · rw [(h c).2.2.1, Cert.ReferenceIdeal.Read.val_main_v67_eq, Cert.ReferenceIdeal.Arrays.upper_eq, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
